-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S262144 : Shape := ⟨1, ![262144]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S262144 : S_.BroadcastsInDim S262144 (![] : Fin 0 → Fin S262144.rank)
  reducesTo_S262144_S_d0 : S262144.ReducesTo [0] S_

variable [Facts]

def fn {F : FTy → Type} [FloatOps F] (main_arg0 : FVec F S262144x256 .f32) (main_arg1 : FVec F S262144x256 .f32) (main_arg2 : FVec F S262144 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S262144x256 .f32 := Host.absf main_arg1
  let main_cst_0 : FVec F S_ .f32 := constant S_ .f32 0x7F800000#32
  let main_v5 : FVec F S262144x256 .f32 := broadcastInDim S262144x256 ![] bcast_S_S262144x256 main_cst_0
  let main_v6 : IVec S262144x256 1 := cmpf .olt main_v4 main_v5
  let main_c_1 : IVec S_ 1 := constantI S_ 1 1#1
  let main_v7 : IVec S_ 1 := (fun x v => Host.reduce IntOp.andi x v reducesTo_S262144x256_S_d0_1 h_S_) main_v6 main_c_1
  let main_v8 : IVec S_ 1 := andi main_v3 main_v7
  let main_v9 : FVec F S262144 .f32 := Host.absf main_arg2
  let main_cst_2 : FVec F S_ .f32 := constant S_ .f32 0x7F800000#32
  let main_v10 : FVec F S262144 .f32 := broadcastInDim S262144 ![] bcast_S_S262144 main_cst_2
  let main_v11 : IVec S262144 1 := cmpf .olt main_v9 main_v10
  let main_c_3 : IVec S_ 1 := constantI S_ 1 1#1
  let main_v12 : IVec S_ 1 := (fun x v => Host.reduce IntOp.andi x v reducesTo_S262144_S_d0 h_S_) main_v11 main_c_3
  let main_v13 : IVec S_ 1 := andi main_v8 main_v12
  main_v13
-- ==== Kernel.lean ====
abbrev S262144x256 : Shape := ⟨2, ![262144, 256]⟩
abbrev S262144 : Shape := ⟨1, ![262144]⟩
abbrev S2048x128x256 : Shape := ⟨3, ![2048, 128, 256]⟩
abbrev S2048x128 : Shape := ⟨2, ![2048, 128]⟩
abbrev S64x8x128 : Shape := ⟨3, ![64, 8, 128]⟩
abbrev S32x128x256 : Shape := ⟨3, ![32, 128, 256]⟩
abbrev S32x128 : Shape := ⟨2, ![32, 128]⟩
abbrev S1x8x128 : Shape := ⟨3, ![1, 8, 128]⟩
abbrev S32 : Shape := ⟨1, ![32]⟩
abbrev S32x1 : Shape := ⟨2, ![32, 1]⟩
abbrev S1 : Shape := ⟨1, ![1]⟩
abbrev S1x1 : Shape := ⟨2, ![1, 1]⟩
abbrev S1x1x1 : Shape := ⟨3, ![1, 1, 1]⟩
abbrev S64x1x1 : Shape := ⟨3, ![64, 1, 1]⟩
abbrev S64 : Shape := ⟨1, ![64]⟩
abbrev S_ : Shape := ⟨0, ![]⟩

abbrev nBuf : Space → Nat
  | .hbm => 13
  | .vmem => 8
  | .smem => 0
  | _ => 0

abbrev bufTy : (tb : Table) → Fin (tcTables nBuf tb) → BufTy
  | .hbm, ⟨0, _⟩ => ⟨S262144x256, .f32⟩
  | .hbm, ⟨1, _⟩ => ⟨S262144x256, .f32⟩
  | .hbm, ⟨2, _⟩ => ⟨S262144, .f32⟩
  | .hbm, ⟨3, _⟩ => ⟨S2048x128x256, .f32⟩
  | .hbm, ⟨4, _⟩ => ⟨S2048x128x256, .f32⟩
  | .hbm, ⟨5, _⟩ => ⟨S2048x128, .f32⟩
  | .hbm, ⟨6, _⟩ => ⟨S64x8x128, .f32⟩
  | .hbm, ⟨7, _⟩ => ⟨S64x1x1, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S32x128x256, .f32⟩
  | .local _ .vmem, ⟨1, _⟩ => ⟨S32x128x256, .f32⟩
  | .local _ .vmem, ⟨2, _⟩ => ⟨S32x128x256, .f32⟩
  | .local _ .vmem, ⟨3, _⟩ => ⟨S32x128x256, .f32⟩
  | .local _ .vmem, ⟨4, _⟩ => ⟨S32x128, .f32⟩
  | .local _ .vmem, ⟨5, _⟩ => ⟨S32x128, .f32⟩
  | .local _ .vmem, ⟨6, _⟩ => ⟨S1x8x128, .f32⟩
  | .local _ .vmem, ⟨7, _⟩ => ⟨S1x8x128, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S262144x256_S2048x128x256 : S262144x256.ShapeCasts S2048x128x256
  shapeCasts_S262144_S2048x128 : S262144.ShapeCasts S2048x128
  inb_S32x128x256_S32x128x256_0_0_0 : ∀ a, (![0, 0, 0] : Fin 3 → Nat) a + S32x128x256.size a ≤ S32x128x256.size a
  h_S32x128x256 : 0 < S32x128x256.numel
  shapeCasts_S32x128x256_S32x128x256 : S32x128x256.ShapeCasts S32x128x256
  reduces_S32x128x256_S32x128 : S32x128x256.Reduces [2] S32x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  reduces_S32x128_S32 : S32x128.Reduces [1] S32
  shapeCasts_S32_S32x1 : S32.ShapeCasts S32x1
  reduces_S32x1_S1 : S32x1.Reduces [0] S1
  shapeCasts_S1_S1x1 : S1.ShapeCasts S1x1
  shapeCasts_S1x1_S1x1x1 : S1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  slices_S64x8x128_S64x1x1_0_0_0 : S64x8x128.Slices ![0, 0, 0] S64x1x1
  shapeCasts_S64x1x1_S64 : S64x1x1.ShapeCasts S64
  reducesTo_S64_S_d0 : S64.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x256.size a ≤ S2048x128x256.size a
  hwx0_0 : ∀ i : grid0.Coords, EltTy.bits .f32 = 32 ∨ (Rect.block (s := S2048x128x256) S32x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128x256.size a ≤ S2048x128x256.size a
  hwx0_1 : ∀ i : grid0.Coords, EltTy.bits .f32 = 32 ∨ (Rect.block (s := S2048x128x256) S32x128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S2048x128.size a
  hwx0_2 : ∀ i : grid0.Coords, EltTy.bits .f32 = 32 ∨ (Rect.block (s := S2048x128) S32x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S64x8x128.size a
  hwx0_3 : ∀ i : grid0.Coords, EltTy.bits .f32 = 32 ∨ (Rect.block (s := S64x8x128) S1x8x128.size (cc0_transform_3 i) (hinb0_3 i)).WholeWords (EltTy.packing .f32)

variable [Facts₀]

abbrev win0_0 : Pipeline.Window sig grid0 :=
  Pipeline.Window.ofSpec (Memref.whole main_v0) S32x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x256 : Shape := ⟨2, ![262144, 256]⟩
abbrev S262144 : Shape := ⟨1, ![262144]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144x256, .f32⟩
  | .hbm, ⟨2, _⟩ => ⟨S262144, .f32⟩
  | .hbm, ⟨3, _⟩ => ⟨S262144x256, .f32⟩
  | .hbm, ⟨4, _⟩ => ⟨S262144x256, .f32⟩
  | .hbm, ⟨5, _⟩ => ⟨S_, .f32⟩
  | .hbm, ⟨6, _⟩ => ⟨S262144, .f32⟩
  | .hbm, ⟨7, _⟩ => ⟨S262144, .f32⟩
  | .hbm, ⟨8, _⟩ => ⟨S262144, .f32⟩
  | .hbm, ⟨9, _⟩ => ⟨S_, .f32⟩
  | .hbm, ⟨10, _⟩ => ⟨S262144, .f32⟩
  | .hbm, ⟨11, _⟩ => ⟨S262144, .i1⟩
  | .hbm, ⟨12, _⟩ => ⟨S_, .f32⟩
  | .hbm, ⟨13, _⟩ => ⟨S262144, .f32⟩
  | .hbm, ⟨14, _⟩ => ⟨S262144, .f32⟩
  | .hbm, ⟨15, _⟩ => ⟨S_, .f32⟩
  | .hbm, ⟨16, _⟩ => ⟨S262144, .f32⟩
  | .hbm, ⟨17, _⟩ => ⟨S262144, .f32⟩
  | .hbm, ⟨18, _⟩ => ⟨S_, .f32⟩
  | .hbm, ⟨19, _⟩ => ⟨S262144, .f32⟩
  | .hbm, ⟨20, _⟩ => ⟨S262144, .f32⟩
  | .hbm, ⟨21, _⟩ => ⟨S_, .f32⟩
  | .hbm, ⟨22, _⟩ => ⟨S262144, .f32⟩
  | .hbm, ⟨23, _⟩ => ⟨S262144, .f32⟩
  | .hbm, ⟨24, _⟩ => ⟨S262144, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_call1_cst : Ref sig .tc := ⟨.hbm, 21, rfl⟩
abbrev main_call1_v0 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩

abbrev nD : Nat := 1
abbrev τ : Topo := Topo.v7x

variable {F : FTy → Type} [FloatOps F]

class Facts₀ : Prop where
  reducesTo_S262144x256_S262144_d1 : S262144x256.ReducesTo [1] S262144
  h_S_ : 0 < S_.numel
  bcast_S_S262144 : S_.BroadcastsInDim S262144 (![] : Fin 0 → Fin S262144.rank)
  reducesTo_S262144_S_d0 : S262144.ReducesTo [0] S_

variable [Facts₀]

class Facts : Prop extends Facts₀ where

variable [Facts]
-- ==== Proof.LibStats.lean ====
/-
  General lemmas on finite sums of extended reals: the coercion of a real sum, the regrouping of a sum
  over `n * b` indices into `n` blocks of `b`, the split of a sum over `m + n` indices into its first `m`
  and last `n` terms, the identity "mean of squares minus squared mean = mean of squared deviations" over
  finite extended reals with the ideal division by a nonzero real constant, and the two float literals
  `0.0` and `50000.0` as the extended reals they denote.
-/
import Idealize.ShloMosaic.PureOps.Ideal
import Mathlib.Algebra.BigOperators.Fin
import Mathlib.Algebra.BigOperators.Ring.Finset
import Mathlib.Tactic.Ring
import Mathlib.Tactic.FieldSimp
import Mathlib.Tactic.NormNum
import Mathlib.Tactic.Linarith

noncomputable section

namespace Cert.LibStats

open Idealize.ShloMosaic
open scoped BigOperators

/-! ### (L1) The coercion `ℝ → EReal` commutes with finite sums -/

/-- The coercion of a finite sum of reals is the sum of the coercions: `↑(∑ i ∈ s, f i) = ∑ i ∈ s, ↑(f i)`. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type: `↑(∑ i, f i) = ∑ i, ↑(f i)`. -/
theorem coe_sum_univ {ι : Type*} [Fintype ι] (f : ι → ℝ) :
    ((∑ i, f i : ℝ) : EReal) = ∑ i, (f i : EReal) :=
  coe_sum Finset.univ f

/-! ### (L2) A sum over `n * b` indices, regrouped into `n` blocks of `b` -/

/-- The `r`-th index of the `t`-th block of size `b` lies below `n * b`: `b * t + r < n * b` for `t < n`, `r < b`. -/
theorem block_lt {n b t r : ℕ} (ht : t < n) (hr : r < b) : b * t + r < n * b := by
  calc b * t + r < b * t + b := Nat.add_lt_add_left hr _
    _ = b * (t + 1) := by ring
    _ ≤ b * n := Nat.mul_le_mul_left _ ht
    _ = n * b := Nat.mul_comm _ _

/-- Block regrouping, in any commutative additive monoid (no finiteness needed): the sum over `m = n * b`
    indices is the sum over the `n` blocks of the sums over the `b` indices `b * t + r` of block `t`. -/
theorem sum_blocks {M : Type*} [AddCommMonoid M] (n b m : ℕ) (h : n * b = m) (a : Fin m → M) :
    (∑ t : Fin n, ∑ r : Fin b, a ⟨b * t.val + r.val, h ▸ block_lt t.isLt r.isLt⟩) = ∑ i : Fin m, a i := by
  subst h
  rw [← Fintype.sum_prod_type (f := fun p : Fin n × Fin b => a ⟨b * p.1.val + p.2.val, block_lt p.1.isLt p.2.isLt⟩)]
  refine Fintype.sum_equiv finProdFinEquiv _ _ (fun p => ?_)
  congr 1
  apply Fin.ext
  simp [finProdFinEquiv, Nat.add_comm]

/-- Block regrouping for `5` blocks of `10000`: `∑ t < 5, ∑ r < 10000, a (10000 t + r) = ∑ i < 50000, a i`. -/
theorem sum_blocks_5_10000 {M : Type*} [AddCommMonoid M] (a : Fin 50000 → M) :
    (∑ t : Fin 5, ∑ r : Fin 10000, a ⟨10000 * t.val + r.val, block_lt (n := 5) t.isLt r.isLt⟩)
      = ∑ i : Fin 50000, a i :=
  sum_blocks 5 10000 50000 rfl a

/-- Five terms added one after the other onto `0`, from the left, are their sum. -/
theorem acc5_zero {M : Type*} [AddCommMonoid M] (S : Fin 5 → M) :
    ((((0 + S 0) + S 1) + S 2) + S 3) + S 4 = ∑ t : Fin 5, S t := by
  rw [Fin.sum_univ_five, zero_add]

/-- Five terms added one after the other, from the left, are their sum. -/
theorem acc5 {M : Type*} [AddCommMonoid M] (S : Fin 5 → M) :
    (((S 0 + S 1) + S 2) + S 3) + S 4 = ∑ t : Fin 5, S t := by
  rw [Fin.sum_univ_five]

/-- The left-nested accumulation of five block sums, each block sum itself started from `0`:
    with `S t = 0 + ∑ r < 10000, a (10000 t + r)`, `(((S 0 + S 1) + S 2) + S 3) + S 4 = ∑ i < 50000, a i`. -/
theorem acc5_blocks {M : Type*} [AddCommMonoid M] (a : Fin 50000 → M) :
    ((((0 + ∑ r : Fin 10000, a ⟨10000 * (0 : Fin 5).val + r.val, block_lt (n := 5) (0 : Fin 5).isLt r.isLt⟩)
      + (0 + ∑ r : Fin 10000, a ⟨10000 * (1 : Fin 5).val + r.val, block_lt (n := 5) (1 : Fin 5).isLt r.isLt⟩))
      + (0 + ∑ r : Fin 10000, a ⟨10000 * (2 : Fin 5).val + r.val, block_lt (n := 5) (2 : Fin 5).isLt r.isLt⟩))
      + (0 + ∑ r : Fin 10000, a ⟨10000 * (3 : Fin 5).val + r.val, block_lt (n := 5) (3 : Fin 5).isLt r.isLt⟩))
      + (0 + ∑ r : Fin 10000, a ⟨10000 * (4 : Fin 5).val + r.val, block_lt (n := 5) (4 : Fin 5).isLt r.isLt⟩)
      = ∑ i : Fin 50000, a i := by
  rw [← sum_blocks_5_10000 a, Fin.sum_univ_five]
  simp only [zero_add]

/-- The same with one more `0` at the very start of the accumulation:
    `((((0 + S 0) + S 1) + S 2) + S 3) + S 4 = ∑ i < 50000, a i`. -/
theorem acc5_zero_blocks {M : Type*} [AddCommMonoid M] (a : Fin 50000 → M) :
    (((((0 + (0 + ∑ r : Fin 10000, a ⟨10000 * (0 : Fin 5).val + r.val, block_lt (n := 5) (0 : Fin 5).isLt r.isLt⟩))
      + (0 + ∑ r : Fin 10000, a ⟨10000 * (1 : Fin 5).val + r.val, block_lt (n := 5) (1 : Fin 5).isLt r.isLt⟩))
      + (0 + ∑ r : Fin 10000, a ⟨10000 * (2 : Fin 5).val + r.val, block_lt (n := 5) (2 : Fin 5).isLt r.isLt⟩))
      + (0 + ∑ r : Fin 10000, a ⟨10000 * (3 : Fin 5).val + r.val, block_lt (n := 5) (3 : Fin 5).isLt r.isLt⟩))
      + (0 + ∑ r : Fin 10000, a ⟨10000 * (4 : Fin 5).val + r.val, block_lt (n := 5) (4 : Fin 5).isLt r.isLt⟩))
      = ∑ i : Fin 50000, a i := by
  rw [zero_add]; exact acc5_blocks a

/-- The same with the block offsets as literals: the five block sums over the indices `r`, `10000 + r`,
    `20000 + r`, `30000 + r`, `40000 + r` (`r < 10000`), each started from `0` and added from the left. -/
theorem acc5_blocks_lit {M : Type*} [AddCommMonoid M] (a : Fin 50000 → M) :
    ((((0 + ∑ r : Fin 10000, a ⟨r.val, by have := r.isLt; omega⟩)
      + (0 + ∑ r : Fin 10000, a ⟨10000 + r.val, by have := r.isLt; omega⟩))
      + (0 + ∑ r : Fin 10000, a ⟨20000 + r.val, by have := r.isLt; omega⟩))
      + (0 + ∑ r : Fin 10000, a ⟨30000 + r.val, by have := r.isLt; omega⟩))
      + (0 + ∑ r : Fin 10000, a ⟨40000 + r.val, by have := r.isLt; omega⟩)
      = ∑ i : Fin 50000, a i := by
  rw [← acc5_blocks a]
  refine congrArg₂ (· + ·) (congrArg₂ (· + ·) (congrArg₂ (· + ·) (congrArg₂ (· + ·) ?_ ?_) ?_) ?_) ?_ <;>
    refine congrArg (0 + ·) (Finset.sum_congr rfl fun r _ => congrArg a (Fin.ext ?_)) <;>
    first
      | rfl
      | exact (Nat.zero_add _).symm

/-! ### (L3) A sum over `m + n` indices, split into its first `m` and its last `n` terms -/

/-- Concatenation split, in any commutative additive monoid: the sum over `N = m + n` indices is the sum over
    the first `m` plus the sum over the last `n`, the latter at the indices `m + k`. -/
theorem sum_split {M : Type*} [AddCommMonoid M] (m n N : ℕ) (h : m + n = N) (f : Fin N → M) :
    ∑ k : Fin N, f k
      = (∑ k : Fin m, f ⟨k.val, by have := k.isLt; omega⟩) + ∑ k : Fin n, f ⟨m + k.val, by have := k.isLt; omega⟩ := by
  subst h
  rw [Fin.sum_univ_add]
  rfl

/-- Concatenation split of `128 = 64 + 64` terms. -/
theorem sum_split_64_64 {M : Type*} [AddCommMonoid M] (f : Fin 128 → M) :
    ∑ k : Fin 128, f k
      = (∑ k : Fin 64, f ⟨k.val, by have := k.isLt; omega⟩) + ∑ k : Fin 64, f ⟨64 + k.val, by have := k.isLt; omega⟩ :=
  sum_split 64 64 128 rfl f

/-! ### (L4) Mean of squares minus squared mean = mean of squared deviations -/

/-- The sum of the squared deviations from any constant `c`:
    `∑ (x r - c)² = ∑ x r² - 2 c ∑ x r + n c²`. -/
theorem sum_sq_dev {n : ℕ} (x : Fin n → ℝ) (c : ℝ) :
    ∑ r, (x r - c) * (x r - c) = (∑ r, x r * x r) - 2 * c * (∑ r, x r) + (n : ℝ) * (c * c) := by
  have h : ∀ r, (x r - c) * (x r - c) = x r * x r - 2 * c * x r + c * c := fun r => by ring
  simp only [h, Finset.sum_add_distrib, Finset.sum_sub_distrib, ← Finset.mul_sum, Finset.sum_const,
    Finset.card_univ, Fintype.card_fin, nsmul_eq_mul]
  ring

/-- The variance identity over the reals: with `N = n > 0` and `μ = (∑ x r) / N`,
    `(∑ x r²) / N - μ² = (∑ (x r - μ)²) / N`. -/
theorem variance_real {n : ℕ} (hn : 0 < n) (x : Fin n → ℝ) :
    (∑ r, x r * x r) / (n : ℝ) - (∑ r, x r) / (n : ℝ) * ((∑ r, x r) / (n : ℝ))
      = (∑ r, (x r - (∑ r, x r) / (n : ℝ)) * (x r - (∑ r, x r) / (n : ℝ))) / (n : ℝ) := by
  have hN : (n : ℝ) ≠ 0 := Nat.cast_ne_zero.mpr hn.ne'
  rw [sum_sq_dev]
  field_simp
  ring

/-- The ideal quotient of a sum of finite extended reals, started from `0`, by a nonzero real `N` is the
    real quotient: `div (0 + ∑ ↑(f r)) ↑N = ↑((∑ f r) / N)`. -/
theorem div_sum_coe {ι : Type*} [Fintype ι] (f : ι → ℝ) {N : ℝ} (hN : N ≠ 0) :
    Ideal.div (0 + ∑ r, (f r : EReal)) (N : EReal) = (((∑ r, f r) / N : ℝ) : EReal) := by
  rw [zero_add, ← coe_sum_univ, Ideal.div_coe hN, ← EReal.coe_mul, mul_one_div]

/-- The same without the leading `0`: `div (∑ ↑(f r)) ↑N = ↑((∑ f r) / N)`. -/
theorem div_sum_coe' {ι : Type*} [Fintype ι] (f : ι → ℝ) {N : ℝ} (hN : N ≠ 0) :
    Ideal.div (∑ r, (f r : EReal)) (N : EReal) = (((∑ r, f r) / N : ℝ) : EReal) := by
  rw [← coe_sum_univ, Ideal.div_coe hN, ← EReal.coe_mul, mul_one_div]

/-- The variance identity over finite extended reals given by real witnesses, in the ideal operations:
    with `X r = ↑(x r)`, a divisor `d = ↑n`, `n > 0`, and `M = div (0 + ∑ X r) d`,
    `div (0 + ∑ X r * X r) d - M * M = div (0 + ∑ (X r - M) * (X r - M)) d`. -/
theorem variance_coe {n : ℕ} (hn : 0 < n) (x : Fin n → ℝ) (d : EReal) (hd : d = ((n : ℝ) : EReal)) :
    Ideal.div (0 + ∑ r, (x r : EReal) * (x r : EReal)) d
        - Ideal.div (0 + ∑ r, (x r : EReal)) d * Ideal.div (0 + ∑ r, (x r : EReal)) d
      = Ideal.div (0 + ∑ r, ((x r : EReal) - Ideal.div (0 + ∑ r, (x r : EReal)) d)
                          * ((x r : EReal) - Ideal.div (0 + ∑ r, (x r : EReal)) d)) d := by
  subst hd
  have hN : (n : ℝ) ≠ 0 := Nat.cast_ne_zero.mpr hn.ne'
  rw [div_sum_coe x hN]
  simp only [← EReal.coe_sub, ← EReal.coe_mul]
  rw [div_sum_coe _ hN, div_sum_coe _ hN, ← EReal.coe_sub, variance_real hn x]

/-- The variance identity over extended reals that are all finite (none is `⊤` or `⊥`), in the ideal
    operations: with a divisor `d = ↑n`, `n > 0`, and `M = div (0 + ∑ X r) d`,
    `div (0 + ∑ X r * X r) d - M * M = div (0 + ∑ (X r - M) * (X r - M)) d`. -/
theorem variance_ereal {n : ℕ} (hn : 0 < n) (X : Fin n → EReal) (hX : ∀ r, X r ≠ ⊤ ∧ X r ≠ ⊥)
    (d : EReal) (hd : d = ((n : ℝ) : EReal)) :
    Ideal.div (0 + ∑ r, X r * X r) d - Ideal.div (0 + ∑ r, X r) d * Ideal.div (0 + ∑ r, X r) d
      = Ideal.div (0 + ∑ r, (X r - Ideal.div (0 + ∑ r, X r) d) * (X r - Ideal.div (0 + ∑ r, X r) d)) d := by
  obtain ⟨x, rfl⟩ : ∃ x : Fin n → ℝ, X = fun r => (x r : EReal) :=
    ⟨fun r => (X r).toReal, funext fun r => (EReal.coe_toReal (hX r).1 (hX r).2).symm⟩
  exact variance_coe hn x d hd

/-- The variance identity over finite extended reals given by real witnesses, the sums not started from `0`:
    with `M = div (∑ X r) d`, `div (∑ X r * X r) d - M * M = div (∑ (X r - M) * (X r - M)) d`. -/
theorem variance_coe' {n : ℕ} (hn : 0 < n) (x : Fin n → ℝ) (d : EReal) (hd : d = ((n : ℝ) : EReal)) :
    Ideal.div (∑ r, (x r : EReal) * (x r : EReal)) d
        - Ideal.div (∑ r, (x r : EReal)) d * Ideal.div (∑ r, (x r : EReal)) d
      = Ideal.div (∑ r, ((x r : EReal) - Ideal.div (∑ r, (x r : EReal)) d)
                      * ((x r : EReal) - Ideal.div (∑ r, (x r : EReal)) d)) d := by
  have h := variance_coe hn x d hd
  simpa only [zero_add] using h

/-- The variance identity over extended reals that are all finite, the sums not started from `0`. -/
theorem variance_ereal' {n : ℕ} (hn : 0 < n) (X : Fin n → EReal) (hX : ∀ r, X r ≠ ⊤ ∧ X r ≠ ⊥)
    (d : EReal) (hd : d = ((n : ℝ) : EReal)) :
    Ideal.div (∑ r, X r * X r) d - Ideal.div (∑ r, X r) d * Ideal.div (∑ r, X r) d
      = Ideal.div (∑ r, (X r - Ideal.div (∑ r, X r) d) * (X r - Ideal.div (∑ r, X r) d)) d := by
  have h := variance_ereal hn X hX d hd
  simpa only [zero_add] using h

/-- The natural number `50000` as a real is the real literal `50000`. -/
theorem cast_50000 : ((50000 : ℕ) : ℝ) = (50000 : ℝ) := by norm_num

/-- The variance identity for `50000` finite extended reals given by real witnesses, divisor `d = ↑50000`. -/
theorem variance_coe_50000 (x : Fin 50000 → ℝ) (d : EReal) (hd : d = ((50000 : ℝ) : EReal)) :
    Ideal.div (0 + ∑ r, (x r : EReal) * (x r : EReal)) d
        - Ideal.div (0 + ∑ r, (x r : EReal)) d * Ideal.div (0 + ∑ r, (x r : EReal)) d
      = Ideal.div (0 + ∑ r, ((x r : EReal) - Ideal.div (0 + ∑ r, (x r : EReal)) d)
                          * ((x r : EReal) - Ideal.div (0 + ∑ r, (x r : EReal)) d)) d :=
  variance_coe (n := 50000) (by norm_num) x d (by rw [hd, cast_50000])

/-- The variance identity for `50000` extended reals that are all finite, divisor `d = ↑50000`. -/
theorem variance_ereal_50000 (X : Fin 50000 → EReal) (hX : ∀ r, X r ≠ ⊤ ∧ X r ≠ ⊥)
    (d : EReal) (hd : d = ((50000 : ℝ) : EReal)) :
    Ideal.div (0 + ∑ r, X r * X r) d - Ideal.div (0 + ∑ r, X r) d * Ideal.div (0 + ∑ r, X r) d
      = Ideal.div (0 + ∑ r, (X r - Ideal.div (0 + ∑ r, X r) d) * (X r - Ideal.div (0 + ∑ r, X r) d)) d :=
  variance_ereal (n := 50000) (by norm_num) X hX d (by rw [hd, cast_50000])

/-! ### (L5) The literals -/

/-- The binary32 pattern `0x47435000` (sign `+`, exponent `142 - 127 = 15`, significand `1.52587890625`)
    denotes the real `50000`. -/
theorem ofBits_50000 : Ideal.ofBits .f32 0x47435000#32 = ((50000 : ℝ) : EReal) := by
  simp [Ideal.ofBits, Ideal.ieee, -EReal.coe_mul]; norm_num

/-- The binary32 pattern `0x00000000` (`+0.0`) denotes `0`. -/
theorem ofBits_zero : Ideal.ofBits .f32 0x00000000#32 = 0 := by
  simp [Ideal.ofBits, Ideal.ieee]

/-- An integer converted to an ideal float is that integer, read signed, as an extended real. -/
theorem sitofp_def {φ : FTy} {w : ℕ} (b : BitVec w) :
    FloatOps.sitofp (F := Ideal) φ b = ((b.toInt : ℝ) : EReal) := rfl

/-- The 32-bit integer `0` converted to an ideal float is `0`. -/
theorem sitofp_zero_i32 {φ : FTy} : FloatOps.sitofp (F := Ideal) φ (0#32) = 0 := by
  rw [sitofp_def]; simp

end Cert.LibStats

end
-- ==== Proof.LibOneAxis.lean ====
/-
  Two general facts for programs that sum over a one-axis array or apply `tanh`, read on the extended reals:
  a sum over a one-axis index type is the sum over its coordinate (`sum_idx1`, with the equivalence `idxEquiv1`), and
  `tanh` of any extended real is a real number between `-1` and `1` (`tanh_mem`: the limits `∓1` at `∓∞`, the real
  `tanh`, strictly inside, elsewhere); and the binary32 word of `1.0` as the extended real `1` (`ofBits_one`).
-/
import Idealize.ShloMosaic.PureOps.Ideal
import Idealize.ShloMosaic.Lib.ValueIdx

noncomputable section

namespace Cert.LibOneAxis

open Idealize.ShloMosaic Idealize.ShloMosaic.ValueIdx
open scoped BigOperators

/-- A one-axis index is its one coordinate. -/
def idxEquiv1 {n : ℕ} : (⟨1, ![n]⟩ : Shape).Idx ≃ Fin n where
  toFun j := j 0
  invFun := ix1
  left_inv j := (eq_ix1 j).symm
  right_inv _ := rfl

/-- A sum over a one-axis index type is the sum over its coordinate: `∑ j, f j = ∑ r : Fin n, f (ix1 r)`
    (in any commutative additive monoid). -/
theorem sum_idx1 {M : Type*} [AddCommMonoid M] {n : ℕ} (f : (⟨1, ![n]⟩ : Shape).Idx → M) :
    ∑ j, f j = ∑ r : Fin n, f (ix1 r) :=
  Fintype.sum_equiv idxEquiv1 _ _ fun j => congrArg f (eq_ix1 j)

/-- On the extended reals `tanh` is a real number between `-1` and `1`: its limits `-1` at `-∞` and `1` at `+∞`, and the
    real `tanh` (strictly inside) at a real. -/
theorem tanh_mem (x : EReal) : ∃ r : ℝ, Ideal.tanh x = (r : EReal) ∧ -1 ≤ r ∧ r ≤ 1 := by
  induction x using EReal.rec with
  | bot => exact ⟨-1, by rw [Ideal.tanh_bot, EReal.coe_neg, EReal.coe_one], le_refl _, by norm_num⟩
  | coe r => exact ⟨Real.tanh r, rfl, (Real.neg_one_lt_tanh r).le, (Real.tanh_lt_one r).le⟩
  | top => exact ⟨1, by rw [Ideal.tanh_top, EReal.coe_one], by norm_num, le_refl _⟩

/-- The binary32 pattern `0x3F800000` (`1.0`) denotes `1`. -/
theorem ofBits_one : Ideal.ofBits .f32 0x3F800000#32 = 1 := by
  simp [Ideal.ofBits, Ideal.ieee, -EReal.coe_mul]; norm_num

end Cert.LibOneAxis

end
-- ==== Proof.Spec.lean ====
/-
  The loss, stated once over plain extended-real arrays.

  For a row `r` of two `[262144, 256]` arrays `a`, `b` let `d r = √(∑ₖ (a r k − b r k)²)` and `t r = tanh (d r)`.
  One program adds, per row, `1 + (if m r then 0 − t r else t r)`; the other adds
  `if m r then max (1 − t r) 0 else max (1 + t r) 0`, where `m r` says `s r ≥ 0.8`.  On the extended reals
  `tanh` takes values in `[-1, 1]` (its limits `∓1` at `∓∞`), so `1 − t` and `1 + t` are never negative and the
  two maxima are their first arguments: the two summands are one number, row by row, whatever the inputs.

  One program sums the rows tile by tile — 64 tiles of 32 groups of 128 rows, row `128·(32·T + g) + l` —
  and the other sums all 262144 rows at once; addition of extended reals is commutative and associative, so the two
  totals agree (`regroup`).
-/
import Idealize.ShloMosaic.PureOps.Ideal
import Idealize.ShloMosaic.Lib.ValueIdx
import proofs.«122244_j44487271252808_2_alg».proof.Proof.LibStats
import proofs.«122244_j44487271252808_2_alg».proof.Proof.LibOneAxis

noncomputable section

namespace Cert.SynLoss

open Idealize.ShloMosaic Idealize.ShloMosaic.ValueIdx
open scoped BigOperators

/-! ## The float words -/

/-- The pattern of `1.0` denotes `1`. -/
theorem one_word : Ideal.ofBits .f32 0x3F800000#32 = 1 := Cert.LibOneAxis.ofBits_one

/-- The pattern of `+0.0` denotes `0`. -/
theorem zero_word : Ideal.ofBits .f32 0x00000000#32 = 0 := Cert.LibStats.ofBits_zero

/-! ## `tanh` stays in `[-1, 1]` -/

/-- On the extended reals `tanh` is a real number between `-1` and `1`: the limits at the infinities, the real
    `tanh` (strictly inside) elsewhere. -/
theorem tanh_mem (x : EReal) : ∃ r : ℝ, Ideal.tanh x = (r : EReal) ∧ -1 ≤ r ∧ r ≤ 1 := Cert.LibOneAxis.tanh_mem x

/-- THE ROW IDENTITY. With `t = tanh x`: `1 + (if c then 0 − t else t)` is `if c then max (1 − t) 0 else max (1 + t) 0`,
    because `-1 ≤ t ≤ 1` makes both maxima their first arguments. -/
theorem err_eq (x : EReal) (c : BitVec 1) :
    Ideal.ofBits .f32 0x3F800000#32
        + Scalar.select c (Ideal.ofBits .f32 0x00000000#32 - Ideal.tanh x) (Ideal.tanh x)
      = Scalar.select c (max (Ideal.ofBits .f32 0x3F800000#32 - Ideal.tanh x) (Ideal.ofBits .f32 0x00000000#32))
          (max (Ideal.ofBits .f32 0x3F800000#32 + Ideal.tanh x) (Ideal.ofBits .f32 0x00000000#32)) := by
  obtain ⟨r, hr, h1, h2⟩ := tanh_mem x
  rw [hr, one_word, zero_word]
  have e1 : (1 : EReal) - (r : EReal) = ((1 - r : ℝ) : EReal) := by rw [EReal.coe_sub, EReal.coe_one]
  have e2 : (1 : EReal) + (r : EReal) = ((1 + r : ℝ) : EReal) := by rw [EReal.coe_add, EReal.coe_one]
  rcases BitVec.eq_zero_or_eq_one c with h | h <;> subst h
  · rw [select_zero, select_zero, e2, max_eq_left (EReal.coe_nonneg.mpr (by linarith))]
  · rw [select_one, select_one, zero_sub, ← sub_eq_add_neg, e1, max_eq_left (EReal.coe_nonneg.mpr (by linarith))]

/-! ## The rows and their sum -/

/-- A `[262144, 256]` array of extended reals. -/
abbrev Mat := (⟨2, ![262144, 256]⟩ : Shape).Idx → EReal
/-- A `[262144]` array of extended reals. -/
abbrev Col := (⟨1, ![262144]⟩ : Shape).Idx → EReal

/-- The squared distance of row `r`: `∑ₖ (a r k − b r k)²`. -/
def sqDist (a b : Mat) (r : Fin 262144) : EReal :=
  ∑ k : Fin 256, (a (ix2 r k) - b (ix2 r k)) * (a (ix2 r k) - b (ix2 r k))

/-- `tanh` of the distance of row `r`. -/
def rowTanh (a b : Mat) (r : Fin 262144) : EReal := Ideal.tanh (Ideal.sqrt (sqDist a b r))

/-- Whether row `r`'s score reaches the threshold word (`0.8` rounded to binary32, the same word in both programs). -/
def mask (s : Col) (r : Fin 262144) : BitVec 1 :=
  FloatOps.cmpf (F := Ideal) .oge (s (ix1 r)) (Ideal.ofBits .f32 0x3F4CCCCD#32)

/-- Row `r`'s summand with the clamps dropped: `1 + (if m then 0 − t else t)`. -/
def errPlain (a b : Mat) (s : Col) (r : Fin 262144) : EReal :=
  Ideal.ofBits .f32 0x3F800000#32
    + Scalar.select (mask s r) (Ideal.ofBits .f32 0x00000000#32 - rowTanh a b r) (rowTanh a b r)

/-- Row `r`'s summand with the clamps: `if m then max (1 − t) 0 else max (1 + t) 0`. -/
def errClamped (a b : Mat) (s : Col) (r : Fin 262144) : EReal :=
  Scalar.select (mask s r) (max (Ideal.ofBits .f32 0x3F800000#32 - rowTanh a b r) (Ideal.ofBits .f32 0x00000000#32))
    (max (Ideal.ofBits .f32 0x3F800000#32 + rowTanh a b r) (Ideal.ofBits .f32 0x00000000#32))

/-- The two summands are one number, row by row. -/
theorem errPlain_eq_errClamped (a b : Mat) (s : Col) (r : Fin 262144) : errPlain a b s r = errClamped a b s r :=
  err_eq _ _

/-! ## Tiles -/

/-- The row that lane `l` of group `g` of tile `T` holds: `128·(32·T + g) + l`. -/
def row (T : Fin 64) (g : Fin 32) (l : Fin 128) : Fin 262144 :=
  ⟨128 * (32 * T.val + g.val) + l.val, by have := T.isLt; have := g.isLt; have := l.isLt; omega⟩

/-- Summing tile by tile, group by group, lane by lane visits every row once: the sum over the 64 × 32 × 128 cells
    is the sum over the 262144 rows (in any commutative additive monoid). -/
theorem regroup {M : Type*} [AddCommMonoid M] (f : Fin 262144 → M) :
    ∑ T : Fin 64, ∑ g : Fin 32, ∑ l : Fin 128, f (row T g l) = ∑ r : Fin 262144, f r := by
  rw [← Cert.LibStats.sum_blocks 2048 128 262144 rfl f,
    ← Cert.LibStats.sum_blocks 64 32 2048 rfl
        (fun G : Fin 2048 => ∑ l : Fin 128, f ⟨128 * G.val + l.val, Cert.LibStats.block_lt G.isLt l.isLt⟩)]
  rfl

/-- The total over one tile. -/
def tileTotal (a b : Mat) (s : Col) (T : Fin 64) : EReal := ∑ g : Fin 32, ∑ l : Fin 128, errPlain a b s (row T g l)

/-- The tiles' totals add up to the clamped summands' total over all rows. -/
theorem sum_tiles (a b : Mat) (s : Col) : ∑ T : Fin 64, tileTotal a b s T = ∑ r : Fin 262144, errClamped a b s r := by
  unfold tileTotal
  rw [regroup (fun r => errPlain a b s r)]
  exact Finset.sum_congr rfl fun r _ => errPlain_eq_errClamped a b s r

/-- THE LOSS: the clamped summands' total over all rows, divided by the word of `262144.0`. -/
def loss (a b : Mat) (s : Col) : EReal :=
  Ideal.div (∑ r : Fin 262144, errClamped a b s r) (Ideal.ofBits .f32 0x48800000#32)

/-- The tiles' totals, divided by the same word, are the loss. -/
theorem div_sum_tiles (a b : Mat) (s : Col) :
    Ideal.div (∑ T : Fin 64, tileTotal a b s T) (Ideal.ofBits .f32 0x48800000#32) = loss a b s := by
  rw [sum_tiles]; rfl

/-! ## Sums over a one-axis index type -/

/-- A sum over a one-axis index type is the sum over its coordinate. -/
theorem sum_idx1 {M : Type*} [AddCommMonoid M] {n : ℕ} (f : (⟨1, ![n]⟩ : Shape).Idx → M) :
    ∑ j, f j = ∑ r : Fin n, f (ix1 r) := Cert.LibOneAxis.sum_idx1 f

end Cert.SynLoss

end
-- ==== Proof.LibLayout.lean ====
/-
  Layout operations of small shapes read at an index, in the forms a row-wise normalisation needs: a vector made a
  column and a column spread over the columns of a matrix (the two halves of a `keepdims` reduction's broadcast), a
  row vector made a one-row matrix and spread over the rows, and a scalar spread over any shape. Each says which
  operand entry the result reads at `(p, c)`.
-/
import Idealize.ShloMosaic.Lib.ValueIdx
import Idealize.ShloMosaic.Lib.ValueLayout
import Idealize.ShloMosaic.Lib.Pipeline.Value

namespace Cert.LibLayout

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A scalar spread over any shape (`broadcast_in_dim` with no axis) reads the scalar everywhere. -/
theorem broadcastInDim_scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun ax => ax.elim0

/-- A vector `[b]` made the one row of `[1, b]` (`broadcast_in_dim` on axis 1) reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row matrix `[1, b]` spread over `a` rows (`broadcast_in_dim` on axes 0, 1) reads, at `(p, c)`, the row at `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` made a column `[a, 1]` (`broadcast_in_dim` on axis 0) reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column `[a, 1]` spread over `b` columns (`broadcast_in_dim` on axes 0, 1) reads, at `(p, c)`, the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

end Cert.LibLayout
-- ==== Proof.TileValue.lean ====
/-
  What one grid point stores, read at an index.

  From a tile's two `[32, 128, 256]` blocks `x0`, `x1` and its `[32, 128]` block of scores `x2` the body forms, per cell
  `(g, l)`, `t = tanh √(∑ₖ (x0 g l k − x1 g l k)²)` and `1 + (if x2 g l ≥ 0.8 then 0 − t else t)`, sums the 128 lanes of each
  group, then the 32 groups, and spreads that one number over the whole `[1, 8, 128]` output block: every entry of the
  stored block is the tile's total `∑_g ∑_l cell g l`.
-/
import proofs.«122244_j44487271252808_2_alg».proof.Proof.Gen.KernelIdeal.Skeleton
import proofs.«122244_j44487271252808_2_alg».proof.Proof.Spec
import proofs.«122244_j44487271252808_2_alg».proof.Proof.LibLayout
import Idealize.ShloMosaic.PureOps.Ideal.Laws
import Idealize.ShloMosaic.Lib.Pipeline.Value

noncomputable section

namespace Cert.SynLoss.Tile

open Idealize.ShloMosaic Idealize.ShloMosaic.ValueIdx Cert.KernelIdeal Cert.KernelIdeal.Gen Cert.SynLoss
open scoped BigOperators

/-! ## The three sums, at literal coordinates -/

/-- The sum over the last axis of a `[32, 128, 256]` block, at cell `(g, l)`: its 256 entries. -/
theorem sum_entries (v : FVec Ideal S32x128x256 .f32) (h : S32x128x256.Reduces [2] S32x128) (hφ : FKind.Formats .f32)
    (hacc : (0x00000000#32 : BitVec 32) = FKind.add.neutral .f32 hφ) (g : Fin 32) (l : Fin 128) :
    multiReduction .add [2] S32x128 v 0x00000000#32 h hφ hacc (ix2 g l) = ∑ k : Fin 256, v (ix3 g l k) :=
  (Ideal.multiReduction_add_single v _ h hφ hacc (ix2 g l)).trans
    (Finset.sum_congr rfl fun k _ => congrArg v (funext fun c => Fin.ext (by
      match c with | ⟨0, _⟩ => rfl | ⟨1, _⟩ => rfl | ⟨2, _⟩ => rfl)))

/-- The sum over the lanes of a `[32, 128]` block, at group `g`: its 128 cells. -/
theorem sum_lanes (v : FVec Ideal S32x128 .f32) (h : S32x128.Reduces [1] S32) (hφ : FKind.Formats .f32)
    (hacc : (0x00000000#32 : BitVec 32) = FKind.add.neutral .f32 hφ) (g : Fin 32) :
    multiReduction .add [1] S32 v 0x00000000#32 h hφ hacc (ix1 g) = ∑ l : Fin 128, v (ix2 g l) :=
  (Ideal.multiReduction_add_single v _ h hφ hacc (ix1 g)).trans
    (Finset.sum_congr rfl fun l _ => congrArg v (funext fun c => Fin.ext (by
      match c with | ⟨0, _⟩ => rfl | ⟨1, _⟩ => rfl)))

/-- The sum over the rows of a `[32, 1]` column, at its one entry: the 32 groups. -/
theorem sum_groups (v : FVec Ideal S32x1 .f32) (h : S32x1.Reduces [0] S1) (hφ : FKind.Formats .f32)
    (hacc : (0x00000000#32 : BitVec 32) = FKind.add.neutral .f32 hφ) :
    multiReduction .add [0] S1 v 0x00000000#32 h hφ hacc (ix1 (0 : Fin 1)) = ∑ g : Fin 32, v (ix2 g (0 : Fin 1)) :=
  (Ideal.multiReduction_add_single v _ h hφ hacc (ix1 (0 : Fin 1))).trans
    (Finset.sum_congr rfl fun g _ => congrArg v (funext fun c => Fin.ext (by
      match c with | ⟨0, _⟩ => rfl | ⟨1, _⟩ => rfl)))

/-! ## A cell -/

/-- `tanh` of the distance at cell `(g, l)` of a tile. -/
def cellTanh (x0 x1 : FVec Ideal S32x128x256 .f32) (g : Fin 32) (l : Fin 128) : EReal :=
  Ideal.tanh (Ideal.sqrt (∑ k : Fin 256, (x0 (ix3 g l k) - x1 (ix3 g l k)) * (x0 (ix3 g l k) - x1 (ix3 g l k))))

/-- The summand at cell `(g, l)` of a tile: `1 + (if score ≥ 0.8 then 0 − t else t)`. -/
def cell (x0 x1 : FVec Ideal S32x128x256 .f32) (x2 : FVec Ideal S32x128 .f32) (g : Fin 32) (l : Fin 128) : EReal :=
  Ideal.ofBits .f32 0x3F800000#32
    + Scalar.select (FloatOps.cmpf (F := Ideal) .oge (x2 (ix2 g l)) (Ideal.ofBits .f32 0x3F4CCCCD#32))
        (Ideal.ofBits .f32 0x00000000#32 - cellTanh x0 x1 g l) (cellTanh x0 x1 g l)

/-- The body's `tanh √(row sum of squared differences)`, at cell `(g, l)`. -/
theorem tanh_cell (x0 x1 : FVec Ideal S32x128x256 .f32) (h : S32x128x256.Reduces [2] S32x128) (hφ : FKind.Formats .f32)
    (hacc : (0x00000000#32 : BitVec 32) = FKind.add.neutral .f32 hφ) (g : Fin 32) (l : Fin 128) :
    tanh (sqrt (multiReduction .add [2] S32x128 (mulf (subf x0 x1) (subf x0 x1)) 0x00000000#32 h hφ hacc)) (ix2 g l)
      = cellTanh x0 x1 g l :=
  congrArg (fun z => Ideal.tanh (Ideal.sqrt z)) (sum_entries _ h hφ hacc g l)

/-- A cell's summand is the plain summand of the row the cell holds: if the tile's blocks read, at cell `(g, l)`, row `r` of
    two matrices `a`, `b` and entry `r` of the scores `s`, the cell's summand is `errPlain a b s r`. -/
theorem cell_eq_errPlain (x0 x1 : FVec Ideal S32x128x256 .f32) (x2 : FVec Ideal S32x128 .f32) (a b : Mat) (s : Col)
    (g : Fin 32) (l : Fin 128) (r : Fin 262144)
    (h0 : ∀ k : Fin 256, x0 (ix3 g l k) = a (ix2 r k)) (h1 : ∀ k : Fin 256, x1 (ix3 g l k) = b (ix2 r k))
    (h2 : x2 (ix2 g l) = s (ix1 r)) : cell x0 x1 x2 g l = errPlain a b s r := by
  unfold cell cellTanh errPlain rowTanh sqDist mask
  simp only [h0, h1, h2]

/-! ## The stored block -/

/-- EVERY ENTRY of the block a grid point stores is the tile's total: the sum over its 32 groups and 128 lanes of the
    cells' summands. -/
theorem pay_apply (x0 x1 : Vec Ideal S32x128x256 .f32) (x2 : Vec Ideal S32x128 .f32) (j : S1x8x128.Idx) :
    k0_pay1 (F := Ideal) x0 x1 x2 j = ∑ g : Fin 32, ∑ l : Fin 128, cell x0 x1 x2 g l := by
  unfold k0_pay1
  simp only [shapeCast_self]
  refine (broadcastTo_apply _ _ j (ix3 (0 : Fin 1) (0 : Fin 1) (0 : Fin 1)) (fun a => by
    match a with | ⟨0, _⟩ => rfl | ⟨1, _⟩ => rfl | ⟨2, _⟩ => rfl)).trans ?_
  refine (shapeCast_apply _ _ (ix3 (0 : Fin 1) (0 : Fin 1) (0 : Fin 1)) (ix2 (0 : Fin 1) (0 : Fin 1)) rfl).trans ?_
  refine (shapeCast_apply _ _ (ix2 (0 : Fin 1) (0 : Fin 1)) (ix1 (0 : Fin 1)) rfl).trans ?_
  refine (sum_groups _ _ _ _).trans (Finset.sum_congr rfl fun g _ => ?_)
  refine (Cert.LibLayout.shapeCast_a_a1_apply _ _ g (0 : Fin 1)).trans ?_
  refine (sum_lanes _ _ _ _ g).trans (Finset.sum_congr rfl fun l _ => ?_)
  rw [addf_apply, select_apply, cmpf_apply, subf_apply, broadcast_apply, broadcast_apply, broadcast_apply]
  exact congrArg (fun u => Ideal.ofBits .f32 0x3F800000#32
      + Scalar.select (FloatOps.cmpf (F := Ideal) .oge (x2 (ix2 g l)) (Ideal.ofBits .f32 0x3F4CCCCD#32))
          (Ideal.ofBits .f32 0x00000000#32 - u) u) (tanh_cell x0 x1 _ _ _ g l)

end Cert.SynLoss.Tile

end
-- ==== Proof.OutArray.lean ====
/-
  The output array after the run.

  The region finds the two matrices regrouped as `[2048, 128, 256]` and the scores as `[2048, 128]` (row `128·G + l` of the
  argument at `(G, l)`).  Grid point `t` reads groups `32·t … 32·t + 31`, so cell `(g, l)` of its blocks is row
  `128·(32·t + g) + l` of the arguments, and what it stores — its tile's total at every entry of a `[1, 8, 128]` block — is
  block `t` of the array `i ↦ tileTotal (i 0)`.  The 64 blocks tile the `[64, 8, 128]` output, so that array is what the
  output holds after the last write-back.
-/
import proofs.«122244_j44487271252808_2_alg».proof.Proof.Gen.KernelIdeal.Frame
import proofs.«122244_j44487271252808_2_alg».proof.Proof.TileValue
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.SynLoss.Arr

open Cert.KernelIdeal Cert.KernelIdeal.Gen Cert.SynLoss
open scoped BigOperators

variable (m : (ℓ : Loc nD τ sig) → Buf (Elt Ideal) ℓ)

/-! ## Which blocks a grid point touches -/

/-- Grid point `t` reads and writes block `t` along the leading axis of every window, block `0` along the others. -/
theorem idx_facts : ∀ t : Fin cfg0.N,
    win0_3.index t (0 : Fin 3) = t.val ∧ win0_3.index t (1 : Fin 3) = 0 ∧ win0_3.index t (2 : Fin 3) = 0
    ∧ win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-! ## The arrays the region finds -/

/-- The first matrix as the region finds it: regrouped to `[2048, 128, 256]`. -/
theorem found_a (c : Dev nD) : (V m c main_v0 : S2048x128x256.Idx → EReal)
    = shapeCast S2048x128x256 (m ((c : Thread nD τ).loc main_arg0)) shapeCasts_S262144x256_S2048x128x256 := by
  show StableHlo.after hostOps0 (fun b => m (c, b)) (Proc.devRef .tc main_v0) = _
  after_results; rfl

/-- The second matrix as the region finds it. -/
theorem found_b (c : Dev nD) : (V m c main_v1 : S2048x128x256.Idx → EReal)
    = shapeCast S2048x128x256 (m ((c : Thread nD τ).loc main_arg1)) shapeCasts_S262144x256_S2048x128x256 := by
  show StableHlo.after hostOps0 (fun b => m (c, b)) (Proc.devRef .tc main_v1) = _
  after_results; rfl

/-- The scores as the region finds them: regrouped to `[2048, 128]`. -/
theorem found_s (c : Dev nD) : (V m c main_v2 : S2048x128.Idx → EReal)
    = shapeCast S2048x128 (m ((c : Thread nD τ).loc main_arg2)) shapeCasts_S262144_S2048x128 := by
  show StableHlo.after hostOps0 (fun b => m (c, b)) (Proc.devRef .tc main_v2) = _
  after_results; rfl

/-! ## A point's blocks, cell by cell -/

/-- Entry `k` of cell `(g, l)` of point `t`'s first block is entry `k` of row `128·(32·t + g) + l` of the first matrix. -/
theorem blk_a (c : Dev nD) (t : Fin cfg0.N) (T : Fin 64) (hT : T.val = t.val) (g : Fin 32) (l : Fin 128) (k : Fin 256) :
    (iblk m c 0 t : Vec Ideal S32x128x256 .f32) (ix3 g l k)
      = (m ((c : Thread nD τ).loc main_arg0) : Mat) (ix2 (row T g l) k) := by
  obtain ⟨-, -, -, e0, e1, e2, -⟩ := idx_facts t
  unfold iblk
  rw [View.read_apply]
  show V m c main_v0 _ = _
  rw [found_a]
  refine shapeCast_apply _ _ _ _ ?_
  show (S262144x256.rowMajor (ix2 (row T g l) k)).val
    = (S2048x128x256.rowMajor (((cfg0.win 0).blk t).view.emb (ix3 g l k))).val
  rw [Shape.rowMajor_val_two, Shape.rowMajor_val_three]
  show (128 * (32 * T.val + g.val) + l.val) * 256 + k.val
    = ((win0_0.index t 0 * 32 + 1 * g.val) * 128 + (win0_0.index t 1 * 128 + 1 * l.val)) * 256
      + (win0_0.index t 2 * 256 + 1 * k.val)
  rw [e0, e1, e2, hT]; omega

/-- The same of the second block and the second matrix. -/
theorem blk_b (c : Dev nD) (t : Fin cfg0.N) (T : Fin 64) (hT : T.val = t.val) (g : Fin 32) (l : Fin 128) (k : Fin 256) :
    (iblk m c 1 t : Vec Ideal S32x128x256 .f32) (ix3 g l k)
      = (m ((c : Thread nD τ).loc main_arg1) : Mat) (ix2 (row T g l) k) := by
  obtain ⟨-, -, -, -, -, -, e0, e1, e2, -⟩ := idx_facts t
  unfold iblk
  rw [View.read_apply]
  show V m c main_v1 _ = _
  rw [found_b]
  refine shapeCast_apply _ _ _ _ ?_
  show (S262144x256.rowMajor (ix2 (row T g l) k)).val
    = (S2048x128x256.rowMajor (((cfg0.win 1).blk t).view.emb (ix3 g l k))).val
  rw [Shape.rowMajor_val_two, Shape.rowMajor_val_three]
  show (128 * (32 * T.val + g.val) + l.val) * 256 + k.val
    = ((win0_1.index t 0 * 32 + 1 * g.val) * 128 + (win0_1.index t 1 * 128 + 1 * l.val)) * 256
      + (win0_1.index t 2 * 256 + 1 * k.val)
  rw [e0, e1, e2, hT]; omega

/-- Cell `(g, l)` of point `t`'s block of scores is the score of row `128·(32·t + g) + l`. -/
theorem blk_s (c : Dev nD) (t : Fin cfg0.N) (T : Fin 64) (hT : T.val = t.val) (g : Fin 32) (l : Fin 128) :
    (iblk m c 2 t : Vec Ideal S32x128 .f32) (ix2 g l) = (m ((c : Thread nD τ).loc main_arg2) : Col) (ix1 (row T g l)) := by
  obtain ⟨-, -, -, -, -, -, -, -, -, e0, e1⟩ := idx_facts t
  unfold iblk
  rw [View.read_apply]
  show V m c main_v2 _ = _
  rw [found_s]
  refine shapeCast_apply _ _ _ _ ?_
  show (S262144.rowMajor (ix1 (row T g l))).val = (S2048x128.rowMajor (((cfg0.win 2).blk t).view.emb (ix2 g l))).val
  rw [Shape.rowMajor_val_one, Shape.rowMajor_val_two]
  show 128 * (32 * T.val + g.val) + l.val = (win0_2.index t 0 * 32 + 1 * g.val) * 128 + (win0_2.index t 1 * 128 + 1 * l.val)
  rw [e0, e1, hT]; omega

/-- The cells of point `t`'s blocks add up to tile `t`'s total. -/
theorem tile_eq (c : Dev nD) (t : Fin cfg0.N) (T : Fin 64) (hT : T.val = t.val) :
    ∑ g : Fin 32, ∑ l : Fin 128, Tile.cell (iblk m c 0 t) (iblk m c 1 t) (iblk m c 2 t) g l
      = tileTotal (m ((c : Thread nD τ).loc main_arg0)) (m ((c : Thread nD τ).loc main_arg1))
          (m ((c : Thread nD τ).loc main_arg2)) T :=
  Finset.sum_congr rfl fun g _ => Finset.sum_congr rfl fun l _ =>
    Tile.cell_eq_errPlain _ _ _ _ _ _ g l (row T g l) (fun k => blk_a m c t T hT g l k) (fun k => blk_b m c t T hT g l k)
      (blk_s m c t T hT g l)

/-! ## The output array -/

/-- The array the output ends with: at `(T, _, _)`, tile `T`'s total. -/
def outArr (a b : Mat) (s : Col) : S64x8x128.Idx → EReal := fun i => tileTotal a b s ⟨(i 0).val, (i 0).isLt⟩

theorem hz3 : (![0, 0, 0] : Fin 3 → Nat) = fun _ => 0 := funext fun a => by fin_cases a <;> rfl
theorem hz2 : (![0, 0] : Fin 2 → Nat) = fun _ => 0 := funext fun a => by fin_cases a <;> rfl

/-- WHAT POINT `t` WRITES BACK is block `t` of `outArr` of the argument arrays. -/
theorem flushed_eq (c : Dev nD) (t : Fin cfg0.N) :
    (dats m 0 c).flushed 3 t = ((cfg0.win 3).blk t).view.read (Elt Ideal)
      (outArr (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  unfold out0_3
  rw [View.canon_unit_zero hz3]
  simp only [View.ld_unit_zero (S := S32x128x256) hz3, View.ld_unit_zero (S := S32x128) hz2]
  funext y
  obtain ⟨e0, -⟩ := idx_facts t
  have hN : cfg0.N = 64 := N_0
  have ht : t.val < 64 := by have := t.isLt; omega
  show k0_pay1 (iblk m c 0 t) (iblk m c 1 t) (iblk m c 2 t) y = outArr _ _ _ (((cfg0.win 3).blk t).view.emb y)
  refine (Tile.pay_apply _ _ _ y).trans ?_
  refine (tile_eq m c t ⟨t.val, ht⟩ rfl).trans ?_
  unfold outArr
  refine congrArg (tileTotal _ _ _) (Fin.ext ?_)
  show t.val = win0_3.index t 0 * 1 + 1 * (y 0).val
  have hy : (y 0).val < 1 := (y 0).isLt
  rw [e0]; omega

/-- An index of the output is in point `t`'s block iff each coordinate is in the block's range on its axis. -/
theorem mem_blk (t : Fin cfg0.N) (i : S64x8x128.Idx) :
    i ∈ ((cfg0.win 3).blk t).view.set ↔ ∀ a : Fin 3, win0_3.index t a * S1x8x128.size a ≤ (i a).val
      ∧ (i a).val < win0_3.index t a * S1x8x128.size a + S1x8x128.size a := by
  show i ∈ ((View.whole main_v3).slice (win0_3.rect t)).set ↔ _
  rw [View.set_slice_whole, Rect.mem_set_unit]
  exact Iff.rfl

/-- Every index of the output is in the block of the point its leading coordinate names. -/
theorem cover (i : S64x8x128.Idx) : ∃ t : Fin cfg0.N, (cfg0.win 3).flush t = true ∧ i ∈ ((cfg0.win 3).blk t).view.set := by
  have hN : cfg0.N = 64 := N_0
  have h0 : (i 0).val < 64 := (i 0).isLt
  have h1 : (i 1).val < 8 := (i 1).isLt
  have h2 : (i 2).val < 128 := (i 2).isLt
  have ht : (i 0).val < cfg0.N := by omega
  obtain ⟨e0, e1, e2, -⟩ := idx_facts ⟨(i 0).val, ht⟩
  have e0' : win0_3.index ⟨(i 0).val, ht⟩ 0 = (i 0).val := e0
  refine ⟨⟨(i 0).val, ht⟩, flush0_3 _, ?_⟩
  rw [mem_blk]
  intro a
  match a with
  | ⟨0, _⟩ =>
    show win0_3.index ⟨(i 0).val, ht⟩ 0 * 1 ≤ (i 0).val ∧ (i 0).val < win0_3.index ⟨(i 0).val, ht⟩ 0 * 1 + 1
    rw [e0']; omega
  | ⟨1, _⟩ =>
    show win0_3.index ⟨(i 0).val, ht⟩ 1 * 8 ≤ (i 1).val ∧ (i 1).val < win0_3.index ⟨(i 0).val, ht⟩ 1 * 8 + 8
    rw [e1]; omega
  | ⟨2, _⟩ =>
    show win0_3.index ⟨(i 0).val, ht⟩ 2 * 128 ≤ (i 2).val ∧ (i 2).val < win0_3.index ⟨(i 0).val, ht⟩ 2 * 128 + 128
    rw [e2]; omega

/-- THE OUTPUT ARRAY after the run is `outArr` of the argument arrays. -/
theorem final (c : Dev nD) : (dats m 0 c).arrAt 3 cfg0.N
    = outArr (m ((c : Thread nD τ).loc main_arg0)) (m ((c : Thread nD τ).loc main_arg1)) (m ((c : Thread nD τ).loc main_arg2)) :=
  (dats m 0 c).arrAt_eq_of_cover 3 _ (fun t _ => flushed_eq m c t) cover

end Cert.SynLoss.Arr

end
-- ==== Proof.KernelValue.lean ====
/-
  The kernel program's result.

  After the region the program takes entry `(T, 0, 0)` of each of the 64 output blocks, adds the 64 numbers onto the zero
  word and divides by the word of `262144.0`.  The output array holds tile `T`'s total at `(T, _, _)`, and the tiles'
  totals add up to the total over all rows: the result is the loss.
-/
import proofs.«122244_j44487271252808_2_alg».proof.Proof.OutArray

noncomputable section

open Idealize.ShloMosaic Idealize.ShloMosaic.TcCoe Idealize.SL.Sem Idealize.ShloMosaic.ValueIdx
open Idealize.ShloMosaic.Pipeline (Dat)

namespace Cert.SynLoss.Kernel

open Cert.KernelIdeal Cert.KernelIdeal.Gen Cert.SynLoss
open scoped BigOperators

variable (m : (ℓ : Loc nD τ sig) → Buf (Elt Ideal) ℓ) (ρ : Dev nD → PrngReg)

/-! ## The lines after the region, on any output array -/

/-- Entry `T` of the 64 numbers the tail adds: entry `(T, 0, 0)` of the output array. -/
theorem picked_apply (O : S64x8x128.Idx → EReal) (T : Fin 64) :
    shapeCast S64 (extractStridedSlice S64x1x1 ![0, 0, 0] O slices_S64x8x128_S64x1x1_0_0_0) shapeCasts_S64x1x1_S64 (ix1 T)
      = O (ix3 T (0 : Fin 8) (0 : Fin 128)) := by
  refine (shapeCast_apply _ _ (ix1 T) (ix3 T (0 : Fin 1) (0 : Fin 1)) ?_).trans ?_
  · rw [Shape.rowMajor_val_one, Shape.rowMajor_val_three]
    show (T.val * 1 + 0) * 1 + 0 = T.val
    omega
  · refine extractStridedSlice_apply _ O _ _ (ix3 T (0 : Fin 8) (0 : Fin 128)) fun a => ?_
    match a with
    | ⟨0, _⟩ => exact (Nat.zero_add _).symm
    | ⟨1, _⟩ => rfl
    | ⟨2, _⟩ => rfl

/-- The tail's result on an output array `O`: the sum of its 64 entries `(T, 0, 0)`, divided by the word of `262144.0`. -/
theorem tail_apply (O : S64x8x128.Idx → EReal) (i : S_.Idx) :
    Host.divf (F := Ideal)
        (Host.reduceAdd (F := Ideal)
          (shapeCast S64 (extractStridedSlice S64x1x1 ![0, 0, 0] O slices_S64x8x128_S64x1x1_0_0_0) shapeCasts_S64x1x1_S64)
          (constant (F := Ideal) S_ .f32 0x00000000#32) reducesTo_S64_S_d0 h_S_)
        (constant (F := Ideal) S_ .f32 0x48800000#32) i
      = Ideal.div (∑ T : Fin 64, O (ix3 T (0 : Fin 8) (0 : Fin 128))) (Ideal.ofBits .f32 0x48800000#32) := by
  have hsum : Host.reduceAdd (F := Ideal)
        (shapeCast S64 (extractStridedSlice S64x1x1 ![0, 0, 0] O slices_S64x8x128_S64x1x1_0_0_0) shapeCasts_S64x1x1_S64)
        (constant (F := Ideal) S_ .f32 0x00000000#32) reducesTo_S64_S_d0 h_S_ i
      = Ideal.ofBits .f32 0x00000000#32
        + ∑ j : S64.Idx, shapeCast S64 (extractStridedSlice S64x1x1 ![0, 0, 0] O slices_S64x8x128_S64x1x1_0_0_0)
            shapeCasts_S64x1x1_S64 j := by
    simp only [Host.reduceAdd, Ideal.hostReduceAdd_def]
    exact Ideal.hostReduceAdd_total reducesTo_S64_S_d0 (fun b => b.elim0) _ _ i
  have hpick : ∑ T : Fin 64, shapeCast S64 (extractStridedSlice S64x1x1 ![0, 0, 0] O slices_S64x8x128_S64x1x1_0_0_0)
        shapeCasts_S64x1x1_S64 (ix1 T) = ∑ T : Fin 64, O (ix3 T (0 : Fin 8) (0 : Fin 128)) :=
    Finset.sum_congr rfl fun T _ => picked_apply O T
  show Ideal.div (Host.reduceAdd (F := Ideal) _ _ reducesTo_S64_S_d0 h_S_ i) (Ideal.ofBits .f32 0x48800000#32) = _
  rw [hsum, zero_word, zero_add, sum_idx1, hpick]

/-! ## The result -/

/-- THE KERNEL PROGRAM'S RESULT, as the frame run states it, is the loss of the argument arrays. -/
theorem result (c : Dev nD) :
    Pipeline.afterTail₀ cfgs (dats m) 0 (V0 m) [hostOps1] c main_v7
      = fun _ => loss (m ((c : Thread nD τ).loc main_arg0)) (m ((c : Thread nD τ).loc main_arg1)) (m ((c : Thread nD τ).loc main_arg2)) := by
  unfold Pipeline.afterTail₀
  show StableHlo.after hostOps1 _ (Proc.devRef .tc main_v7) = _
  after_results
  have hw : Pipeline.withArrays (cfgs 0).spec c (V0 m c) (fun w => (dats m 0 c).arrAt w (cfgs 0).N) (Proc.devRef .tc main_v3)
      = Arr.outArr (m ((c : Thread nD τ).loc main_arg0)) (m ((c : Thread nD τ).loc main_arg1)) (m ((c : Thread nD τ).loc main_arg2)) :=
    (Pipeline.withArrays_arr spec0 launch0.win.arr_inj c _ _ 3).trans (Arr.final m c)
  rw [hw]
  funext i
  refine (tail_apply _ i).trans ?_
  exact div_sum_tiles _ _ _

/-- THE RUN, READ: every weakly fair execution of the kernel program ends with its result at the loss of the argument
    arrays and the argument arrays unchanged. -/
theorem run : θ_run defs (onTc (τ := τ) (main (F := Ideal))) ⟨m, fun _ => 0, ρ⟩ fun r => ∀ c : Dev nD,
      r.2.mem ((c.tc : Thread nD τ).loc main_v7)
        = (fun _ => loss (m ((c : Thread nD τ).loc main_arg0)) (m ((c : Thread nD τ).loc main_arg1)) (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v7 (Pipeline.mem_restRefs_of main_v7 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.SynLoss.Kernel

end
-- ==== Proof.RefValue.lean ====
/-
  The reference's result, read element by element.

  Its one output entry is the quotient, by the word of `262144.0`, of `0 +` the sum over all rows of the clamped
  summand `if s r ≥ 0.8 then max (1 − t r) 0 else max (1 + t r) 0`, `t r = tanh √(0 + ∑ₖ (a r k − b r k)²)`:
  each stage of the program read at an index, the row sum's and the total's initial zero dropped.
-/
import proofs.«122244_j44487271252808_2_alg».proof.Proof.Gen.ReferenceIdeal.Read
import proofs.«122244_j44487271252808_2_alg».proof.Proof.Spec

noncomputable section

namespace Cert.SynLoss.Ref

open Idealize.ShloMosaic Idealize.ShloMosaic.ValueIdx
open Cert.ReferenceIdeal Cert.ReferenceIdeal.Read Cert.SynLoss
open scoped BigOperators

/-- The index of entry `k` of row `r`, as the program's row sum names it. -/
theorem idx_row (r : Fin 262144) (k : Fin 256) : idx_main_v2 (ix1 r) k = ix2 r k :=
  funext fun a => Fin.ext (by match a with | ⟨0, _⟩ => rfl | ⟨1, _⟩ => rfl)

/-- `tanh` of row `r`'s distance, as the program computes it (the row sum started from the zero word). -/
theorem v4_row (x0 x1 : (⟨S262144x256, .f32⟩ : BufTy).Contents (Elt Ideal)) (r : Fin 262144) :
    val_main_v4 (F := Ideal) x0 x1 (ix1 r) = rowTanh x0 x1 r := by
  rw [val_main_v4_apply, val_main_v3_apply, val_main_v2_apply, val_main_cst_apply]
  simp only [val_main_v1_apply, val_main_v0_apply, idx_row, Ideal.hostUnary_tanh_def, Ideal.hostUnary_sqrt_def,
    Ideal.ofBits_def, Ideal.subf_def, Ideal.mulf_def]
  rw [zero_word, zero_add]
  rfl

/-- Row `r`'s summand is the clamped one. -/
theorem v13_row (x0 x1 : (⟨S262144x256, .f32⟩ : BufTy).Contents (Elt Ideal)) (x2 : (⟨S262144, .f32⟩ : BufTy).Contents (Elt Ideal))
    (r : Fin 262144) : val_main_v13 (F := Ideal) x0 x1 x2 (ix1 r) = errClamped x0 x1 x2 r := by
  rw [val_main_v13_apply, val_main_v6_apply, val_main_v9_apply, val_main_v12_apply, val_main_v8_apply,
    val_main_v11_apply, val_main_v7_apply, val_main_v10_apply, val_main_cst_1_apply, val_main_cst_2_apply,
    val_main_call0_v0_apply, val_main_call0_cst_apply, val_main_call1_v0_apply, val_main_call1_cst_apply,
    val_main_v5_apply, val_main_cst_0_apply, v4_row]
  rfl

/-- THE REFERENCE'S RESULT is the loss: the clamped summands' total over all rows, divided by the word of `262144.0`. -/
theorem result (x0 x1 : (⟨S262144x256, .f32⟩ : BufTy).Contents (Elt Ideal)) (x2 : (⟨S262144, .f32⟩ : BufTy).Contents (Elt Ideal))
    (i : S_.Idx) :
    val_main_v15 (F := Ideal) x0 x1 x2 i
      = loss x0 x1 x2 := by
  unfold loss
  rw [val_main_v15_apply, val_main_v14_apply, val_main_cst_3_apply, val_main_cst_4_apply]
  simp only [Ideal.hostDivf_def, Ideal.ofBits_def]
  rw [zero_word, zero_add, sum_idx1]
  have h : ∑ r : Fin 262144, val_main_v13 (F := Ideal) x0 x1 x2 (ix1 r) = ∑ r : Fin 262144, errClamped x0 x1 x2 r :=
    Finset.sum_congr rfl fun r _ => v13_row x0 x1 x2 r
  rw [h]

end Cert.SynLoss.Ref

end
-- ==== Proof.lean ====
/-
  A per-row distance loss, computed tile by tile, against the same loss computed at once.

  Inputs: two `[262144, 256]` matrices `a`, `b` and a `[262144]` vector of scores `s`.  For row `r` let
  `t r = tanh √(∑ₖ (a r k − b r k)²)` and `m r = (s r ≥ 0.8)`.

  • The reference returns `(0 + ∑ᵣ (if m r then max (1 − t r) 0 else max (1 + t r) 0)) / 262144`.
  • The kernel program regroups the rows as 2048 groups of 128 lanes; grid point `T` (of 64) takes 32 groups, forms
    `1 + (if m r then 0 − t r else t r)` at each of its 4096 rows, adds them lane by lane and then group by group, and
    writes the tile's total to every entry of output block `T`; afterwards the program adds entry `(T, 0, 0)` of the 64
    blocks onto `0` and divides by `262144`.

  Read on the extended reals with exact operations the two agree, for every input:
  `tanh` takes its values in `[-1, 1]`, so `1 − t` and `1 + t` are never negative, each maximum with `0` is its first
  argument, and `1 + (0 − t) = 1 − t`: the summands agree row by row.  The 64 × 32 × 128 cells are the 262144 rows, each
  once (row `128·(32·T + g) + l`), and addition of extended reals is commutative and associative: the totals agree.  The
  threshold, `1`, `0` and `262144` are the same binary32 words in both programs, and both divide by the same word.

  The three programs run to completion with their arguments unchanged: the two kernel programs by their launch and body
  (every grid point loads three whole blocks and stores one), the reference as a straight line of array operations.
  The ideal reading of the kernel program rewrote no operation, so it is the program's own text read exactly.
-/
import proofs.«122244_j44487271252808_2_alg».proof.Defs
import proofs.«122244_j44487271252808_2_alg».proof.Proof.Gen.Kernel
import proofs.«122244_j44487271252808_2_alg».proof.Proof.Gen.Kernel.Skeleton
import proofs.«122244_j44487271252808_2_alg».proof.Proof.Gen.Kernel.Launch
import proofs.«122244_j44487271252808_2_alg».proof.Proof.Gen.Kernel.Points
import proofs.«122244_j44487271252808_2_alg».proof.Proof.Gen.Kernel.Frame
import proofs.«122244_j44487271252808_2_alg».proof.Proof.Gen.KernelIdeal
import proofs.«122244_j44487271252808_2_alg».proof.Proof.Gen.KernelIdeal.Skeleton
import proofs.«122244_j44487271252808_2_alg».proof.Proof.Gen.KernelIdeal.Launch
import proofs.«122244_j44487271252808_2_alg».proof.Proof.Gen.KernelIdeal.Points
import proofs.«122244_j44487271252808_2_alg».proof.Proof.Gen.KernelIdeal.Frame
import proofs.«122244_j44487271252808_2_alg».proof.Proof.Gen.ReferenceIdeal
import proofs.«122244_j44487271252808_2_alg».proof.Proof.Gen.Pre_finite_inputs
import proofs.«122244_j44487271252808_2_alg».proof.Proof.Gen.ReferenceIdeal.Run
import proofs.«122244_j44487271252808_2_alg».proof.Proof.Gen.ReferenceIdeal.Read
import proofs.«122244_j44487271252808_2_alg».proof.Proof.KernelValue
import proofs.«122244_j44487271252808_2_alg».proof.Proof.RefValue
import Idealize.ShloMosaic.Adequacy
import Idealize.ShloMosaic.Init

noncomputable section

namespace Cert.Proof

open Idealize.ShloMosaic Idealize.SL.Sem

/-- The kernel program, read word by word, runs to completion and leaves its arguments as they were. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- And the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The exact reading rewrote no operation of the kernel program: nothing to state. -/
theorem preserves : Cert.preserves_Kernel_KernelIdeal := trivial

/-- From memories that agree on the three arguments, both programs end with the loss of those arguments as their one
    result: the kernel program by its tiles' totals, the reference by its sum over all rows. -/
theorem algebraic : Cert.algebraic_KernelIdeal_ReferenceIdeal := by
  intro m ρ m' ρ' _ hagree
  refine ⟨fun c => fun _ => Cert.SynLoss.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.SynLoss.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq]
  funext i
  rw [Cert.SynLoss.Ref.result, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
